-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S2x1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S5000x64 : Shape := ⟨2, ![5000, 64]⟩
abbrev S100000x256 : Shape := ⟨2, ![100000, 256]⟩
abbrev S5000x256 : Shape := ⟨2, ![5000, 256]⟩

abbrev nBuf : Space → Nat
  | .hbm => 92
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S1x1250000, .i32⟩
  | .hbm, ⟨5, _⟩ => ⟨S1250000, .i32⟩
  | .hbm, ⟨6, _⟩ => ⟨S_, .f32⟩
  | .hbm, ⟨7, _⟩ => ⟨S1250000, .f32⟩
  | .hbm, ⟨8, _⟩ => ⟨S_, .f32⟩
  | .hbm, ⟨9, _⟩ => ⟨S100000, .f32⟩
  | .hbm, ⟨10, _⟩ => ⟨S1250000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1250000, .i32⟩
  | .hbm, ⟨20, _⟩ => ⟨S1250000, .i1⟩
  | .hbm, ⟨21, _⟩ => ⟨S_, .i32⟩
  | .hbm, ⟨22, _⟩ => ⟨S1250000, .i32⟩
  | .hbm, ⟨23, _⟩ => ⟨S1250000, .i32⟩
  | .hbm, ⟨24, _⟩ => ⟨S1250000, .i32⟩
  | .hbm, ⟨25, _⟩ => ⟨S1250000x1, .i32⟩
  | .hbm, ⟨26, _⟩ => ⟨S1250000, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000, .f32⟩
  | .hbm, ⟨36, _⟩ => ⟨S1250000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S1250000x1, .f32⟩
  | .hbm, ⟨50, _⟩ => ⟨S1250000x64, .f32⟩
  | .hbm, ⟨51, _⟩ => ⟨S1250000x64, .f32⟩
  | .hbm, ⟨52, _⟩ => ⟨S_, .f32⟩
  | .hbm, ⟨53, _⟩ => ⟨S100000x64, .f32⟩
  | .hbm, ⟨54, _⟩ => ⟨S1250000x1, .i32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1250000, .i32⟩
  | .hbm, ⟨59, _⟩ => ⟨S1250000, .i1⟩
  | .hbm, ⟨60, _⟩ => ⟨S_, .i32⟩
  | .hbm, ⟨61, _⟩ => ⟨S1250000, .i32⟩
  | .hbm, ⟨62, _⟩ => ⟨S1250000, .i32⟩
  | .hbm, ⟨63, _⟩ => ⟨S1250000, .i32⟩
  | .hbm, ⟨64, _⟩ => ⟨S1250000x1, .i32⟩
  | .hbm, ⟨65, _⟩ => ⟨S1250000x64, .f32⟩
  | .hbm, ⟨66, _⟩ => ⟨S1250000x1, .f32⟩
  | .hbm, ⟨67, _⟩ => ⟨S1250000x64, .f32⟩
  | .hbm, ⟨68, _⟩ => ⟨S1250000x64, .f32⟩
  | .hbm, ⟨69, _⟩ => ⟨S_, .f32⟩
  | .hbm, ⟨70, _⟩ => ⟨S100000x64, .f32⟩
  | .hbm, ⟨71, _⟩ => ⟨S1250000x1, .i32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1250000, .i32⟩
  | .hbm, ⟨76, _⟩ => ⟨S1250000, .i1⟩
  | .hbm, ⟨77, _⟩ => ⟨S_, .i32⟩
  | .hbm, ⟨78, _⟩ => ⟨S1250000, .i32⟩
  | .hbm, ⟨79, _⟩ => ⟨S1250000, .i32⟩
  | .hbm, ⟨80, _⟩ => ⟨S1250000, .i32⟩
  | .hbm, ⟨81, _⟩ => ⟨S1250000x1, .i32⟩
  | .hbm, ⟨82, _⟩ => ⟨S1250000x64, .f32⟩
  | .hbm, ⟨83, _⟩ => ⟨S1250000x1, .f32⟩
  | .hbm, ⟨84, _⟩ => ⟨S1250000x64, .f32⟩
  | .hbm, ⟨85, _⟩ => ⟨S1250000x64, .f32⟩
  | .hbm, ⟨86, _⟩ => ⟨S_, .f32⟩
  | .hbm, ⟨87, _⟩ => ⟨S100000x64, .f32⟩
  | .hbm, ⟨88, _⟩ => ⟨S1250000x1, .i32⟩
  | .hbm, ⟨89, _⟩ => ⟨S100000x64, .f32⟩
  | .hbm, ⟨90, _⟩ => ⟨S100000x64, .f32⟩
  | .hbm, ⟨91, _⟩ => ⟨S100000x256, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x256, .f32⟩
  | .local _ .vmem, ⟨33, _⟩ => ⟨S5000x256, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_9 : Ref sig .tc := ⟨.hbm, 57, rfl⟩
abbrev main_v44 : Ref sig .tc := ⟨.hbm, 58, rfl⟩
abbrev main_v45 : Ref sig .tc := ⟨.hbm, 59, rfl⟩
abbrev main_c_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_12 : Ref sig .tc := ⟨.hbm, 74, rfl⟩
abbrev main_v58 : Ref sig .tc := ⟨.hbm, 75, rfl⟩
abbrev main_v59 : Ref sig .tc := ⟨.hbm, 76, rfl⟩
abbrev main_c_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x256_S5000x64_0_0 : ∀ a, (![0, 0] : Fin 2 → Nat) a + S5000x64.size a ≤ S5000x256.size a
  inb_S5000x256_S5000x64_0_64 : ∀ a, (![0, 64] : Fin 2 → Nat) a + S5000x64.size a ≤ S5000x256.size a
  inb_S5000x256_S5000x64_0_128 : ∀ a, (![0, 128] : Fin 2 → Nat) a + S5000x64.size a ≤ S5000x256.size a
  inb_S5000x256_S5000x64_0_192 : ∀ a, (![0, 192] : Fin 2 → Nat) a + S5000x64.size a ≤ S5000x256.size a
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x256.size a ≤ S100000x256.size a
  hwx3_4 : ∀ i : grid3.Coords, EltTy.bits .f32 = 32 ∨ (Rect.block (s := S100000x256) S5000x256.size (cc3_transform_4 i) (hinb3_4 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_v42) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v72) S5000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S100000x256 : Shape := ⟨2, ![100000, 256]⟩

abbrev nBuf : Space → Nat
  | .hbm => 106
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S1x1250000, .i32⟩
  | .hbm, ⟨5, _⟩ => ⟨S1250000, .i32⟩
  | .hbm, ⟨6, _⟩ => ⟨S_, .f32⟩
  | .hbm, ⟨7, _⟩ => ⟨S1250000, .f32⟩
  | .hbm, ⟨8, _⟩ => ⟨S_, .f32⟩
  | .hbm, ⟨9, _⟩ => ⟨S100000, .f32⟩
  | .hbm, ⟨10, _⟩ => ⟨S1250000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1250000, .i32⟩
  | .hbm, ⟨20, _⟩ => ⟨S1250000, .i1⟩
  | .hbm, ⟨21, _⟩ => ⟨S_, .i32⟩
  | .hbm, ⟨22, _⟩ => ⟨S1250000, .i32⟩
  | .hbm, ⟨23, _⟩ => ⟨S1250000, .i32⟩
  | .hbm, ⟨24, _⟩ => ⟨S1250000, .i32⟩
  | .hbm, ⟨25, _⟩ => ⟨S1250000x1, .i32⟩
  | .hbm, ⟨26, _⟩ => ⟨S1250000, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000, .f32⟩
  | .hbm, ⟨36, _⟩ => ⟨S1250000, .f32⟩
  | .hbm, ⟨37, _⟩ => ⟨S100000, .f32⟩
  | .hbm, ⟨38, _⟩ => ⟨S100000x1, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000x64, .f32⟩
  | .hbm, ⟨48, _⟩ => ⟨S1250000x1, .f32⟩
  | .hbm, ⟨49, _⟩ => ⟨S1250000x64, .f32⟩
  | .hbm, ⟨50, _⟩ => ⟨S1250000x64, .f32⟩
  | .hbm, ⟨51, _⟩ => ⟨S_, .f32⟩
  | .hbm, ⟨52, _⟩ => ⟨S100000x64, .f32⟩
  | .hbm, ⟨53, _⟩ => ⟨S1250000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1250000, .i32⟩
  | .hbm, ⟨63, _⟩ => ⟨S1250000, .i1⟩
  | .hbm, ⟨64, _⟩ => ⟨S_, .i32⟩
  | .hbm, ⟨65, _⟩ => ⟨S1250000, .i32⟩
  | .hbm, ⟨66, _⟩ => ⟨S1250000, .i32⟩
  | .hbm, ⟨67, _⟩ => ⟨S1250000, .i32⟩
  | .hbm, ⟨68, _⟩ => ⟨S1250000x1, .i32⟩
  | .hbm, ⟨69, _⟩ => ⟨S1250000x64, .f32⟩
  | .hbm, ⟨70, _⟩ => ⟨S1250000x1, .f32⟩
  | .hbm, ⟨71, _⟩ => ⟨S1250000x64, .f32⟩
  | .hbm, ⟨72, _⟩ => ⟨S1250000x64, .f32⟩
  | .hbm, ⟨73, _⟩ => ⟨S_, .f32⟩
  | .hbm, ⟨74, _⟩ => ⟨S100000x64, .f32⟩
  | .hbm, ⟨75, _⟩ => ⟨S1250000x1, .i32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1250000, .i32⟩
  | .hbm, ⟨85, _⟩ => ⟨S1250000, .i1⟩
  | .hbm, ⟨86, _⟩ => ⟨S_, .i32⟩
  | .hbm, ⟨87, _⟩ => ⟨S1250000, .i32⟩
  | .hbm, ⟨88, _⟩ => ⟨S1250000, .i32⟩
  | .hbm, ⟨89, _⟩ => ⟨S1250000, .i32⟩
  | .hbm, ⟨90, _⟩ => ⟨S1250000x1, .i32⟩
  | .hbm, ⟨91, _⟩ => ⟨S1250000x64, .f32⟩
  | .hbm, ⟨92, _⟩ => ⟨S1250000x1, .f32⟩
  | .hbm, ⟨93, _⟩ => ⟨S1250000x64, .f32⟩
  | .hbm, ⟨94, _⟩ => ⟨S1250000x64, .f32⟩
  | .hbm, ⟨95, _⟩ => ⟨S_, .f32⟩
  | .hbm, ⟨96, _⟩ => ⟨S100000x64, .f32⟩
  | .hbm, ⟨97, _⟩ => ⟨S1250000x1, .i32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S100000x64, .f32⟩
  | .hbm, ⟨104, _⟩ => ⟨S100000x64, .f32⟩
  | .hbm, ⟨105, _⟩ => ⟨S100000x256, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_cst : Ref sig .tc := ⟨.hbm, 58, rfl⟩
abbrev main_call0_v0 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call1_cst : Ref sig .tc := ⟨.hbm, 80, rfl⟩
abbrev main_call1_v0 : Ref sig .tc := ⟨.hbm, 81, rfl⟩
abbrev main_v62 : Ref sig .tc := ⟨.hbm, 82, rfl⟩
abbrev main_c_12 : Ref sig .tc := ⟨.hbm, 83, rfl⟩
abbrev main_v63 : Ref sig .tc := ⟨.hbm, 84, rfl⟩
abbrev main_v64 : Ref sig .tc := ⟨.hbm, 85, rfl⟩
abbrev main_c_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call2_cst : Ref sig .tc := ⟨.hbm, 102, rfl⟩
abbrev main_call2_v0 : Ref sig .tc := ⟨.hbm, 103, rfl⟩
abbrev main_v79 : Ref sig .tc := ⟨.hbm, 104, rfl⟩
abbrev main_v80 : Ref sig .tc := ⟨.hbm, 105, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x64_S100000x64_S100000x256_d1 : Shape.Concatenates [S100000x64, S100000x64, S100000x64, S100000x64] S100000x256 1
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.KernelRun.lean ====
/-
  The idealized kernel's run with its result buffer named.

  @main is seven segments: three stretches of host operations, each followed by a layer-step call, and the
  concatenation call last. The generated frame folds the buffer contents through these segments
  (`Gen.W0 … Gen.W7`) and runs them by the library's theorem for a program of several calls; it keeps of the
  final state only that the two arguments are unchanged. Here the same launch is read once more at the result
  buffer `main_v72`: every weakly fair execution ends with it holding the last fold `Gen.W7` there.
-/
import proofs.«128240_j54949811585564_1_alg».proof.Proof.Gen.KernelIdeal.Frame

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, without a fault, with the result buffer at the last
    boundary's contents and both arguments as launched. -/
theorem run_value : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      -- each core's first state: its unscoped buffers at the launch memory, its generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      -- the last state holds every unscoped buffer at `W7`: read them all against the final memory
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c)⟩)

end Cert.KernelIdeal.Layer

end
-- ==== Proof.Layer.lean ====
/-
  The layer's pointwise step and the final concatenation, named once for every module of this proof.

  One propagation layer of the network sends a node-feature array `x` to
  `max (agg + x * s, 0)`, where `agg` is the neighbourhood sum of `x` (a host scatter-add of
  gathered, rescaled rows) and `s` the self-loop coefficient broadcast along the feature axis.
  The step is pointwise in the three arrays: entry `i` of the result depends on entry `i` of each.
  The network's result lays the input features and the three layers' outputs side by side along the feature axis.
  Both are stated here for any float instance; nothing in them needs the extended reals.
-/
import proofs.«128240_j54949811585564_1_alg».proof.KernelIdeal
import Idealize.ShloMosaic.PureOps.Vector

noncomputable section

namespace Cert.KernelIdeal.Layer

open Idealize.ShloMosaic Cert.KernelIdeal

variable {F : FTy → Type} [FloatOps F]

/-- One entry of the step: `max (a + x * s, 0)`, the zero being the float word `0x00000000`. -/
def reluAdd (a x s : F .f32) : F .f32 :=
  FloatOps.maximumf (FloatOps.addf a (FloatOps.mulf x s)) (FloatOps.ofBits .f32 0x00000000#32)

/-- The step on whole arrays of 100000 nodes by 64 features, entry by entry. -/
def step (a x s : S100000x64.Idx → Elt F .f32) : S100000x64.Idx → Elt F .f32 :=
  fun i => reluAdd (a i) (x i) (s i)

/-- Four extents of 64 along axis 1 make the 256 of the joined shape; the row extents agree. -/
theorem joins : Shape.Concatenates [S100000x64, S100000x64, S100000x64, S100000x64] S100000x256 1 := by decide

/-- Four 100000 × 64 arrays laid side by side along the feature axis: 100000 × 256. -/
def joined (a0 a1 a2 a3 : S100000x64.Idx → Elt F .f32) : S100000x256.Idx → Elt F .f32 :=
  concatenate S100000x256 1 [⟨S100000x64, a0⟩, ⟨S100000x64, a1⟩, ⟨S100000x64, a2⟩, ⟨S100000x64, a3⟩] joins

/-- The offsets `(0, 0)` of a rectangle that starts at the origin. -/
theorem origin2 : (![0, 0] : Fin 2 → Nat) = fun _ => 0 := funext fun a => by fin_cases a <;> rfl

end Cert.KernelIdeal.Layer

end
-- ==== Proof.Propagate.lean ====
/-
  One propagation layer, and the network of three, as functions of whole arrays.

  The edge list enters through three arrays fixed once for all layers: the source node of each edge, the
  destination node of each edge, and each edge's normalisation weight. The neighbourhood sum of a feature
  array `x` gathers the source node's row for every edge (a negative index first wrapped by the node count),
  scales it by the edge's weight, and scatter-adds it into the destination node's row of a zero array. A layer
  is the pointwise step of that sum, `x` itself and the self-loop coefficients; the network joins the input and
  the three successive layers' outputs along the feature axis. What the gather and the scatter-add do with an
  index is never opened: both programs apply the same two host operations to the same operands.
-/
import proofs.«128240_j54949811585564_1_alg».proof.Proof.Gen.KernelIdeal
import proofs.«128240_j54949811585564_1_alg».proof.Proof.Layer

noncomputable section

namespace Cert.KernelIdeal.Layer

open Idealize.ShloMosaic Cert.KernelIdeal Cert.KernelIdeal.Facts₀ Cert.KernelIdeal.Facts

variable {F : FTy → Type} [FloatOps F]

/-- The neighbourhood sum of `x` over the edges `src → dst` with weights `nrm`. -/
def agg (x : S100000x64.Idx → Elt F .f32) (src dst : S1250000.Idx → Elt F .i32) (nrm : S1250000.Idx → Elt F .f32) :
    S100000x64.Idx → Elt F .f32 :=
  Host.scatterAdd scatter_S100000x64_S1250000x1_S1250000x64_1_0_0_1
    (broadcastInDim S100000x64 ![] bcast_S_S100000x64 (constant S_ .f32 0x00000000#32))
    (broadcastInDim S1250000x1 ![0] bcast_S1250000_S1250000x1_0 dst)
    (mulf
      (Host.gather gather_S100000x64_S1250000x1_S1250000x64_1_0_n_n_0_1_164 x
        (broadcastInDim S1250000x1 ![0] bcast_S1250000_S1250000x1_0
          (select (cmpi .slt src (broadcastInDim S1250000 ![] bcast_S_S1250000 (constantI S_ 32 0#32)))
            (addi src (broadcastInDim S1250000 ![] bcast_S_S1250000 (constantI S_ 32 100000#32))) src)))
      (broadcastInDim S1250000x64 ![0, 1] bcast_S1250000x1_S1250000x64_0_1
        (broadcastInDim S1250000x1 ![0] bcast_S1250000_S1250000x1_0 nrm)))

/-- One layer: the step of the neighbourhood sum, the features and the self-loop coefficients `sc`. -/
def layer (src dst : S1250000.Idx → Elt F .i32) (nrm : S1250000.Idx → Elt F .f32) (sc : S100000x64.Idx → Elt F .f32)
    (x : S100000x64.Idx → Elt F .f32) : S100000x64.Idx → Elt F .f32 :=
  step (agg x src dst nrm) x sc

/-- The network's result: the input and the outputs of the three layers, joined along the feature axis. -/
def network (x0 : S100000x64.Idx → Elt F .f32) (src dst : S1250000.Idx → Elt F .i32) (nrm : S1250000.Idx → Elt F .f32)
    (sc : S100000x64.Idx → Elt F .f32) : S100000x256.Idx → Elt F .f32 :=
  joined x0 (layer src dst nrm sc x0) (layer src dst nrm sc (layer src dst nrm sc x0))
    (layer src dst nrm sc (layer src dst nrm sc (layer src dst nrm sc x0)))

end Cert.KernelIdeal.Layer

end
-- ==== Proof.Region0.lean ====
/-
  What pallas_call 0 (the layer's dense step over node tiles) leaves in its result array.

  The call walks 20 tiles of 5000 nodes. At tile `t` it loads rows `5000 t … 5000 t + 4999` of its three
  operands (the neighbourhood sums, the features, the self-loop coefficients), computes
  `max (agg + x * s, 0)` entry by entry, and writes the tile back to the same rows of the result. The three
  input tiles and the output tile sit at the same rows, so what tile `t` writes back is rows
  `5000 t …` of ONE whole-array function, `Layer.step agg x s`; the 20 tiles cover all 100000 rows, hence
  the result array ends holding that function. Stated at any contents `V` of the buffers when the call is entered.
-/
import proofs.«128240_j54949811585564_1_alg».proof.Proof.Gen.KernelIdeal.Frame
import proofs.«128240_j54949811585564_1_alg».proof.Proof.Layer
import Idealize.ShloMosaic.Lib.Pipeline.Value

set_option maxRecDepth 16384

noncomputable section

namespace Cert.KernelIdeal.Layer

open Idealize.ShloMosaic Idealize.ShloMosaic.TcCoe
open Idealize.SL Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The body's stored value, entry by entry: the casts in it keep the shape, the zero is a splat. -/
theorem pay0_eq (x0 x1 x2 : Vec F S5000x64 .f32) :
    k0_pay1 x0 x1 x2 = fun j => reluAdd (x0 j) (x1 j) (x2 j) := by
  unfold k0_pay1
  simp only [shapeCast_self]
  rfl

/-- Over the grid: every input tile sits at the output tile's block position, and that position is
    `(t, 0)` with `t ≤ 19`. -/
theorem tiles0 : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 19 ∧ win0_3.index t (1 : Fin 2) = 0 :=
  (by decide +kernel : ∀ t : Fin grid0.N, _)

/-- Every row tile is some grid point's. -/
theorem tiles0_onto : ∀ q : Fin 20, ∃ t : Fin cfg0.N, win0_3.index t = ![q.val, 0] :=
  (by decide +kernel : ∀ q : Fin 20, ∃ t : Fin grid0.N, win0_3.index t = ![q.val, 0])

/-- What grid point `t` writes back is tile `t` of `step agg x s` of the arrays as the call finds them. -/
theorem flushed0_eq (c : Dev nD) (t : Fin cfg0.N) :
    (dat0 V c).flushed 3 t
      = ((cfg0.win 3).blk t).view.read (Elt F) (step (V c main_v42) (V c main_arg0) (V c main_v29)) := by
  show (cfg0.win 3).cut (grid0.coords t) ((dat0 V c).after 3 t) = _
  rw [after0_3]
  unfold out0_3
  rw [View.canon_unit_zero origin2]
  simp only [View.ld_unit_zero (S := S5000x64) origin2]
  rw [pay0_eq]
  obtain ⟨e0, e1, e2, e3, e4, e5, e6, e7⟩ := tiles0 t
  funext j
  show reluAdd (V c main_v42 (((cfg0.win 0).blk t).view.emb j)) (V c main_arg0 (((cfg0.win 1).blk t).view.emb j))
        (V c main_v29 (((cfg0.win 2).blk t).view.emb j))
      = reluAdd (V c main_v42 (((cfg0.win 3).blk t).view.emb j)) (V c main_arg0 (((cfg0.win 3).blk t).view.emb j))
        (V c main_v29 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 64 + 1 * (j 1).val = win0_3.index t (1 : Fin 2) * 64 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 64 + 1 * (j 1).val = win0_3.index t (1 : Fin 2) * 64 + 1 * (j 1).val; omega
  rw [h0, h1, h2]

/-- A node-feature index lies in tile `t` iff each coordinate lies in the tile's range on its axis. -/
theorem mem_tile0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v43).slice (win0_3.rect t)).set ↔ _
  rw [View.set_slice_whole, Rect.mem_set_unit]
  exact Iff.rfl

/-- Every index is in the tile of its row block: the point whose block position is `(row / 5000, 0)`. -/
theorem covered0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := tiles0_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_tile0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the call: the layer's step of the three operand arrays as the call finds them. -/
theorem result0 (c : Dev nD) :
    (dat0 V c).arrAt 3 cfg0.N = step (V c main_v42) (V c main_arg0) (V c main_v29) :=
  (dat0 V c).arrAt_eq_of_cover 3 _ (fun t _ => flushed0_eq V c t) covered0

end Cert.KernelIdeal.Layer

end
-- ==== Proof.Region1.lean ====
/-
  What pallas_call 1 (the layer's dense step over node tiles) leaves in its result array.

  The call walks 20 tiles of 5000 nodes. At tile `t` it loads rows `5000 t … 5000 t + 4999` of its three
  operands (the neighbourhood sums, the features, the self-loop coefficients), computes
  `max (agg + x * s, 0)` entry by entry, and writes the tile back to the same rows of the result. The three
  input tiles and the output tile sit at the same rows, so what tile `t` writes back is rows
  `5000 t …` of ONE whole-array function, `Layer.step agg x s`; the 20 tiles cover all 100000 rows, hence
  the result array ends holding that function. Stated at any contents `V` of the buffers when the call is entered.
-/
import proofs.«128240_j54949811585564_1_alg».proof.Proof.Gen.KernelIdeal.Frame
import proofs.«128240_j54949811585564_1_alg».proof.Proof.Layer
import Idealize.ShloMosaic.Lib.Pipeline.Value

set_option maxRecDepth 16384

noncomputable section

namespace Cert.KernelIdeal.Layer

open Idealize.ShloMosaic Idealize.ShloMosaic.TcCoe
open Idealize.SL Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The body's stored value, entry by entry: the casts in it keep the shape, the zero is a splat. -/
theorem pay1_eq (x0 x1 x2 : Vec F S5000x64 .f32) :
    k1_pay1 x0 x1 x2 = fun j => reluAdd (x0 j) (x1 j) (x2 j) := by
  unfold k1_pay1
  simp only [shapeCast_self]
  rfl

/-- Over the grid: every input tile sits at the output tile's block position, and that position is
    `(t, 0)` with `t ≤ 19`. -/
theorem tiles1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) ≤ 19 ∧ win1_3.index t (1 : Fin 2) = 0 :=
  (by decide +kernel : ∀ t : Fin grid1.N, _)

/-- Every row tile is some grid point's. -/
theorem tiles1_onto : ∀ q : Fin 20, ∃ t : Fin cfg1.N, win1_3.index t = ![q.val, 0] :=
  (by decide +kernel : ∀ q : Fin 20, ∃ t : Fin grid1.N, win1_3.index t = ![q.val, 0])

/-- What grid point `t` writes back is tile `t` of `step agg x s` of the arrays as the call finds them. -/
theorem flushed1_eq (c : Dev nD) (t : Fin cfg1.N) :
    (dat1 V c).flushed 3 t
      = ((cfg1.win 3).blk t).view.read (Elt F) (step (V c main_v56) (V c main_v43) (V c main_v29)) := by
  show (cfg1.win 3).cut (grid1.coords t) ((dat1 V c).after 3 t) = _
  rw [after1_3]
  unfold out1_3
  rw [View.canon_unit_zero origin2]
  simp only [View.ld_unit_zero (S := S5000x64) origin2]
  rw [pay1_eq]
  obtain ⟨e0, e1, e2, e3, e4, e5, e6, e7⟩ := tiles1 t
  funext j
  show reluAdd (V c main_v56 (((cfg1.win 0).blk t).view.emb j)) (V c main_v43 (((cfg1.win 1).blk t).view.emb j))
        (V c main_v29 (((cfg1.win 2).blk t).view.emb j))
      = reluAdd (V c main_v56 (((cfg1.win 3).blk t).view.emb j)) (V c main_v43 (((cfg1.win 3).blk t).view.emb j))
        (V c main_v29 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 64 + 1 * (j 1).val = win1_3.index t (1 : Fin 2) * 64 + 1 * (j 1).val; omega
  rw [h0, h1, h2]

/-- A node-feature index lies in tile `t` iff each coordinate lies in the tile's range on its axis. -/
theorem mem_tile1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v57).slice (win1_3.rect t)).set ↔ _
  rw [View.set_slice_whole, Rect.mem_set_unit]
  exact Iff.rfl

/-- Every index is in the tile of its row block: the point whose block position is `(row / 5000, 0)`. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := tiles1_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_tile1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The result array after the call: the layer's step of the three operand arrays as the call finds them. -/
theorem result1 (c : Dev nD) :
    (dat1 V c).arrAt 3 cfg1.N = step (V c main_v56) (V c main_v43) (V c main_v29) :=
  (dat1 V c).arrAt_eq_of_cover 3 _ (fun t _ => flushed1_eq V c t) covered1

end Cert.KernelIdeal.Layer

end
-- ==== Proof.Region2.lean ====
/-
  What pallas_call 2 (the layer's dense step over node tiles) leaves in its result array.

  The call walks 20 tiles of 5000 nodes. At tile `t` it loads rows `5000 t … 5000 t + 4999` of its three
  operands (the neighbourhood sums, the features, the self-loop coefficients), computes
  `max (agg + x * s, 0)` entry by entry, and writes the tile back to the same rows of the result. The three
  input tiles and the output tile sit at the same rows, so what tile `t` writes back is rows
  `5000 t …` of ONE whole-array function, `Layer.step agg x s`; the 20 tiles cover all 100000 rows, hence
  the result array ends holding that function. Stated at any contents `V` of the buffers when the call is entered.
-/
import proofs.«128240_j54949811585564_1_alg».proof.Proof.Gen.KernelIdeal.Frame
import proofs.«128240_j54949811585564_1_alg».proof.Proof.Layer
import Idealize.ShloMosaic.Lib.Pipeline.Value

set_option maxRecDepth 16384

noncomputable section

namespace Cert.KernelIdeal.Layer

open Idealize.ShloMosaic Idealize.ShloMosaic.TcCoe
open Idealize.SL Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The body's stored value, entry by entry: the casts in it keep the shape, the zero is a splat. -/
theorem pay2_eq (x0 x1 x2 : Vec F S5000x64 .f32) :
    k2_pay1 x0 x1 x2 = fun j => reluAdd (x0 j) (x1 j) (x2 j) := by
  unfold k2_pay1
  simp only [shapeCast_self]
  rfl

/-- Over the grid: every input tile sits at the output tile's block position, and that position is
    `(t, 0)` with `t ≤ 19`. -/
theorem tiles2 : ∀ t : Fin cfg2.N,
    win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = win2_3.index t (1 : Fin 2)
    ∧ win2_2.index t (0 : Fin 2) = win2_3.index t (0 : Fin 2) ∧ win2_2.index t (1 : Fin 2) = win2_3.index t (1 : Fin 2)
    ∧ win2_3.index t (0 : Fin 2) ≤ 19 ∧ win2_3.index t (1 : Fin 2) = 0 :=
  (by decide +kernel : ∀ t : Fin grid2.N, _)

/-- Every row tile is some grid point's. -/
theorem tiles2_onto : ∀ q : Fin 20, ∃ t : Fin cfg2.N, win2_3.index t = ![q.val, 0] :=
  (by decide +kernel : ∀ q : Fin 20, ∃ t : Fin grid2.N, win2_3.index t = ![q.val, 0])

/-- What grid point `t` writes back is tile `t` of `step agg x s` of the arrays as the call finds them. -/
theorem flushed2_eq (c : Dev nD) (t : Fin cfg2.N) :
    (dat2 V c).flushed 3 t
      = ((cfg2.win 3).blk t).view.read (Elt F) (step (V c main_v70) (V c main_v57) (V c main_v29)) := by
  show (cfg2.win 3).cut (grid2.coords t) ((dat2 V c).after 3 t) = _
  rw [after2_3]
  unfold out2_3
  rw [View.canon_unit_zero origin2]
  simp only [View.ld_unit_zero (S := S5000x64) origin2]
  rw [pay2_eq]
  obtain ⟨e0, e1, e2, e3, e4, e5, e6, e7⟩ := tiles2 t
  funext j
  show reluAdd (V c main_v70 (((cfg2.win 0).blk t).view.emb j)) (V c main_v57 (((cfg2.win 1).blk t).view.emb j))
        (V c main_v29 (((cfg2.win 2).blk t).view.emb j))
      = reluAdd (V c main_v70 (((cfg2.win 3).blk t).view.emb j)) (V c main_v57 (((cfg2.win 3).blk t).view.emb j))
        (V c main_v29 (((cfg2.win 3).blk t).view.emb j))
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 64 + 1 * (j 1).val = win2_3.index t (1 : Fin 2) * 64 + 1 * (j 1).val; omega
  rw [h0, h1, h2]

/-- A node-feature index lies in tile `t` iff each coordinate lies in the tile's range on its axis. -/
theorem mem_tile2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v71).slice (win2_3.rect t)).set ↔ _
  rw [View.set_slice_whole, Rect.mem_set_unit]
  exact Iff.rfl

/-- Every index is in the tile of its row block: the point whose block position is `(row / 5000, 0)`. -/
theorem covered2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := tiles2_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_tile2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The result array after the call: the layer's step of the three operand arrays as the call finds them. -/
theorem result2 (c : Dev nD) :
    (dat2 V c).arrAt 3 cfg2.N = step (V c main_v70) (V c main_v57) (V c main_v29) :=
  (dat2 V c).arrAt_eq_of_cover 3 _ (fun t _ => flushed2_eq V c t) covered2

end Cert.KernelIdeal.Layer

end
-- ==== Proof.Region3.lean ====
/-
  What pallas_call 3 (the concatenation of the four feature arrays along the feature axis) leaves in its result array.

  The call walks 20 tiles of 5000 nodes. At tile `t` it loads rows `5000 t … 5000 t + 4999` of the four
  100000 × 64 operands and stores them side by side into a 5000 × 256 tile: operand `k` into columns
  `64 k … 64 k + 63`. Each of the four stores is therefore a block of ONE function of the result's index, the
  concatenation of the four whole arrays along axis 1 read at the tile's rows; the four column blocks cover the tile,
  and the 20 tiles cover the 100000 rows, so the result array ends holding that concatenation.
  Stated at any contents `V` of the buffers when the call is entered.
-/
import proofs.«128240_j54949811585564_1_alg».proof.Proof.Gen.KernelIdeal.Frame
import proofs.«128240_j54949811585564_1_alg».proof.Proof.Layer
import Idealize.ShloMosaic.Lib.Pipeline.Value

set_option maxRecDepth 16384

noncomputable section

namespace Cert.KernelIdeal.Layer

open Idealize.ShloMosaic Idealize.ShloMosaic.TcCoe
open Idealize.SL Idealize.SL.Sem
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- Piece `k` of the four, read through the joined array: the entry at row `r`, column `64 k + q`. -/
theorem joined_piece (a0 a1 a2 a3 : S100000x64.Idx → Elt F .f32) (j : S100000x256.Idx) (i : S100000x64.Idx)
    (k : Nat) (hk : k < 4) (h0 : (i 0).val = (j 0).val) (h1 : 64 * k + (i 1).val = (j 1).val) :
    joined a0 a1 a2 a3 j = ([a0, a1, a2, a3][k]'hk) i := by
  unfold joined
  have hi : ∀ b : Fin S100000x64.rank, b.cast (rfl : S100000x64.rank = S100000x256.rank) ≠ (1 : Fin S100000x256.rank) →
      (i b).val = (j (b.cast rfl)).val := fun b hb => by
    match b with
    | ⟨0, _⟩ => exact h0
    | ⟨1, _⟩ => exact absurd rfl hb
  match k, hk with
  | 0, _ => exact concatenate_apply_piece (1 : Fin S100000x256.rank) _ _ j 0 (by show 0 < 4; omega) S100000x64 a0 rfl rfl 0 (by rfl) i hi (by show 0 + (i 1).val = (j 1).val; omega)
  | 1, _ => exact concatenate_apply_piece (1 : Fin S100000x256.rank) _ _ j 1 (by show 1 < 4; omega) S100000x64 a1 rfl rfl 64 (by rfl) i hi (by show 64 + (i 1).val = (j 1).val; omega)
  | 2, _ => exact concatenate_apply_piece (1 : Fin S100000x256.rank) _ _ j 2 (by show 2 < 4; omega) S100000x64 a2 rfl rfl 128 (by rfl) i hi (by show 128 + (i 1).val = (j 1).val; omega)
  | 3, _ => exact concatenate_apply_piece (1 : Fin S100000x256.rank) _ _ j 3 (by show 3 < 4; omega) S100000x64 a3 rfl rfl 192 (by rfl) i hi (by show 192 + (i 1).val = (j 1).val; omega)

/-- Over the grid: every input tile and the output tile sit at block position `(t, 0)`, `t ≤ 19`. -/
theorem tiles3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = win3_4.index t (0 : Fin 2) ∧ win3_3.index t (1 : Fin 2) = 0
    ∧ win3_4.index t (0 : Fin 2) ≤ 19 ∧ win3_4.index t (1 : Fin 2) = 0 :=
  (by decide +kernel : ∀ t : Fin grid3.N, _)

/-- Every row tile is some grid point's. -/
theorem tiles3_onto : ∀ q : Fin 20, ∃ t : Fin cfg3.N, win3_4.index t = ![q.val, 0] :=
  (by decide +kernel : ∀ q : Fin 20, ∃ t : Fin grid3.N, win3_4.index t = ![q.val, 0])

/-- The body's stored values are the loaded tiles themselves: its casts keep the shape. -/
theorem stored3 (x0 x1 x2 x3 : Vec F S5000x64 .f32) :
    out3_4 x0 x1 x2 x3 = View.canon [⟨r3_4, x3⟩, ⟨r3_3, x2⟩, ⟨r3_2, x1⟩, ⟨r3_1, x0⟩] := by
  unfold out3_4 k3_pay1 k3_pay2 k3_pay3
  simp only [shapeCast_self, View.ld_unit_zero (S := S5000x64) origin2]

/-- What grid point `t` writes back is tile `t` of the four arrays joined, as the call finds them. -/
theorem flushed3_eq (c : Dev nD) (t : Fin cfg3.N) :
    (dat3 V c).flushed 4 t
      = ((cfg3.win 4).blk t).view.read (Elt F) (joined (V c main_arg0) (V c main_v43) (V c main_v57) (V c main_v71)) := by
  show (cfg3.win 4).cut (grid3.coords t) ((dat3 V c).after 4 t) = _
  rw [after3_4, stored3]
  obtain ⟨e0, e1, e2, e3, e4, e5, e6, e7, e8, e9⟩ := tiles3 t
  funext y
  refine View.canon_apply_of_pieces
    (fun y => joined (V c main_arg0) (V c main_v43) (V c main_v57) (V c main_v71) (((cfg3.win 4).blk t).view.emb y)) _ ?_ y
    (cover3_4 _ _ _ _ y)
  intro p hp
  simp only [List.mem_cons, List.not_mem_nil, or_false] at hp
  rcases hp with rfl | rfl | rfl | rfl
  · intro x
    refine (joined_piece _ _ _ _ _ (((cfg3.win 3).blk t).view.emb x) 3 (by decide) ?_ ?_).symm
    · show win3_3.index t (0 : Fin 2) * 5000 + 1 * (x 0).val = win3_4.index t (0 : Fin 2) * 5000 + 1 * (0 + 1 * (x 0).val); omega
    · show 64 * 3 + (win3_3.index t (1 : Fin 2) * 64 + 1 * (x 1).val) = win3_4.index t (1 : Fin 2) * 256 + 1 * (192 + 1 * (x 1).val); omega
  · intro x
    refine (joined_piece _ _ _ _ _ (((cfg3.win 2).blk t).view.emb x) 2 (by decide) ?_ ?_).symm
    · show win3_2.index t (0 : Fin 2) * 5000 + 1 * (x 0).val = win3_4.index t (0 : Fin 2) * 5000 + 1 * (0 + 1 * (x 0).val); omega
    · show 64 * 2 + (win3_2.index t (1 : Fin 2) * 64 + 1 * (x 1).val) = win3_4.index t (1 : Fin 2) * 256 + 1 * (128 + 1 * (x 1).val); omega
  · intro x
    refine (joined_piece _ _ _ _ _ (((cfg3.win 1).blk t).view.emb x) 1 (by decide) ?_ ?_).symm
    · show win3_1.index t (0 : Fin 2) * 5000 + 1 * (x 0).val = win3_4.index t (0 : Fin 2) * 5000 + 1 * (0 + 1 * (x 0).val); omega
    · show 64 * 1 + (win3_1.index t (1 : Fin 2) * 64 + 1 * (x 1).val) = win3_4.index t (1 : Fin 2) * 256 + 1 * (64 + 1 * (x 1).val); omega
  · intro x
    refine (joined_piece _ _ _ _ _ (((cfg3.win 0).blk t).view.emb x) 0 (by decide) ?_ ?_).symm
    · show win3_0.index t (0 : Fin 2) * 5000 + 1 * (x 0).val = win3_4.index t (0 : Fin 2) * 5000 + 1 * (0 + 1 * (x 0).val); omega
    · show 64 * 0 + (win3_0.index t (1 : Fin 2) * 64 + 1 * (x 1).val) = win3_4.index t (1 : Fin 2) * 256 + 1 * (0 + 1 * (x 1).val); omega

/-- An index of the joined array lies in tile `t` iff each coordinate lies in the tile's range on its axis. -/
theorem mem_tile3 (t : Fin cfg3.N) (i : S100000x256.Idx) :
    i ∈ ((cfg3.win 4).blk t).view.set ↔ ∀ a : Fin 2, win3_4.index t a * S5000x256.size a ≤ (i a).val
      ∧ (i a).val < win3_4.index t a * S5000x256.size a + S5000x256.size a := by
  show i ∈ ((View.whole main_v72).slice (win3_4.rect t)).set ↔ _
  rw [View.set_slice_whole, Rect.mem_set_unit]
  exact Iff.rfl

/-- Every index is in the tile of its row block. -/
theorem covered3 (i : S100000x256.Idx) :
    ∃ t : Fin cfg3.N, (cfg3.win 4).flush t = true ∧ i ∈ ((cfg3.win 4).blk t).view.set := by
  have hi0 : (i 0).val < 100000 := (i 0).isLt
  have hi1 : (i 1).val < 256 := (i 1).isLt
  obtain ⟨t, ht⟩ := tiles3_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_tile3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 256 ≤ (i 1).val ∧ (i 1).val < win3_4.index t (1 : Fin 2) * 256 + 256; omega

/-- The result array after the call: the four operand arrays, as the call finds them, joined along the feature axis. -/
theorem result3 (c : Dev nD) :
    (dat3 V c).arrAt 4 cfg3.N = joined (V c main_arg0) (V c main_v43) (V c main_v57) (V c main_v71) :=
  (dat3 V c).arrAt_eq_of_cover 4 _ (fun t _ => flushed3_eq V c t) covered3

end Cert.KernelIdeal.Layer

end
-- ==== Proof.Boundary.lean ====
/-
  The buffer contents at the end of the idealized kernel's @main, read back segment by segment.

  @main's three layers each run as a stretch of host operations (wrap the source indices, gather, scale, scatter-add)
  followed by a call of the dense step; the concatenation call comes last. The edge arrays (sources, destinations,
  weights) and the self-loop coefficients are computed once, before the first call, and no later segment writes them:
  a host stretch writes only its own results, a call only its result array. So each layer's output is
  `Layer.layer` of the previous layer's output with the SAME four edge arrays, and the result buffer ends holding
  `Layer.network` of the input features and those arrays — the arrays being whatever the first host stretch
  left, not opened here.
-/
import proofs.«128240_j54949811585564_1_alg».proof.Proof.Gen.KernelIdeal.Frame
import proofs.«128240_j54949811585564_1_alg».proof.Proof.Propagate
import proofs.«128240_j54949811585564_1_alg».proof.Proof.Region0
import proofs.«128240_j54949811585564_1_alg».proof.Proof.Region1
import proofs.«128240_j54949811585564_1_alg».proof.Proof.Region2
import proofs.«128240_j54949811585564_1_alg».proof.Proof.Region3

set_option maxRecDepth 16384

noncomputable section

namespace Cert.KernelIdeal.Layer

open Idealize.ShloMosaic Idealize.ShloMosaic.TcCoe Idealize.ShloMosaic.StableHlo
open Idealize.SL Idealize.SL.Sem
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg) (c : Dev nD)

/-! ## The four edge arrays, as the first host stretch leaves them -/

/-- Each edge's source node. -/
abbrev srcs : S1250000.Idx → Elt F .i32 := W1 m ρ c (Proc.devRef .tc main_v1)
/-- Each edge's destination node. -/
abbrev dsts : S1250000.Idx → Elt F .i32 := W1 m ρ c (Proc.devRef .tc main_v3)
/-- Each edge's normalisation weight. -/
abbrev wts : S1250000.Idx → Elt F .f32 := W1 m ρ c (Proc.devRef .tc main_v26)
/-- Each node's self-loop coefficient, broadcast along the feature axis. -/
abbrev selfs : S100000x64.Idx → Elt F .f32 := W1 m ρ c (Proc.devRef .tc main_v29)

/-! ## The first host stretch -/

theorem first_features : W1 m ρ c (Proc.devRef .tc main_arg0) = m ((c : Thread nD τ).loc main_arg0) := by
  show StableHlo.after hostOps0 (W0 m ρ c) (Proc.devRef .tc main_arg0) = _
  dsimp only [hostOps0]
  after_results_simp

theorem first_sum : W1 m ρ c (Proc.devRef .tc main_v42)
    = agg (m ((c : Thread nD τ).loc main_arg0)) (srcs m ρ c) (dsts m ρ c) (wts m ρ c) := by
  show StableHlo.after hostOps0 (W0 m ρ c) (Proc.devRef .tc main_v42)
    = agg (m ((c : Thread nD τ).loc main_arg0)) (StableHlo.after hostOps0 (W0 m ρ c) (Proc.devRef .tc main_v1))
        (StableHlo.after hostOps0 (W0 m ρ c) (Proc.devRef .tc main_v3)) (StableHlo.after hostOps0 (W0 m ρ c) (Proc.devRef .tc main_v26))
  unfold agg
  dsimp only [hostOps0]
  after_results_simp

/-! ## The first call, and what it leaves alone -/

theorem call0_srcs : W2 m ρ c (Proc.devRef .tc main_v1) = W1 m ρ c (Proc.devRef .tc main_v1) :=
  W2_of_ne m ρ c main_v1 (by decide)

theorem call0_dsts : W2 m ρ c (Proc.devRef .tc main_v3) = W1 m ρ c (Proc.devRef .tc main_v3) :=
  W2_of_ne m ρ c main_v3 (by decide)

theorem call0_wts : W2 m ρ c (Proc.devRef .tc main_v26) = W1 m ρ c (Proc.devRef .tc main_v26) :=
  W2_of_ne m ρ c main_v26 (by decide)

theorem call0_selfs : W2 m ρ c (Proc.devRef .tc main_v29) = W1 m ρ c (Proc.devRef .tc main_v29) :=
  (W2_arr m ρ c 2).trans (((dat0 (V1 m ρ) c).arrAt_in 2 rfl _).trans (A_eq0 (V1 m ρ) c 2))

theorem call0_features : W2 m ρ c (Proc.devRef .tc main_arg0) = W1 m ρ c (Proc.devRef .tc main_arg0) :=
  (W2_arr m ρ c 1).trans (((dat0 (V1 m ρ) c).arrAt_in 1 rfl _).trans (A_eq0 (V1 m ρ) c 1))

/-- After the first call its result array holds the first layer's output. -/
theorem out1 : W2 m ρ c (Proc.devRef .tc main_v43)
    = layer (srcs m ρ c) (dsts m ρ c) (wts m ρ c) (selfs m ρ c) (m ((c : Thread nD τ).loc main_arg0)) := by
  have h : W2 m ρ c (Proc.devRef .tc main_v43) = step (W1 m ρ c (Proc.devRef .tc main_v42)) (W1 m ρ c (Proc.devRef .tc main_arg0)) (W1 m ρ c (Proc.devRef .tc main_v29)) :=
    (W2_arr m ρ c 3).trans (result0 (V1 m ρ) c)
  rw [h, first_sum, first_features]
  rfl

/-! ## The second host stretch and the second call -/

theorem second_sum : W3 m ρ c (Proc.devRef .tc main_v56)
    = agg (W2 m ρ c (Proc.devRef .tc main_v43)) (W2 m ρ c (Proc.devRef .tc main_v1)) (W2 m ρ c (Proc.devRef .tc main_v3)) (W2 m ρ c (Proc.devRef .tc main_v26)) := by
  show StableHlo.after hostOps1 (W2 m ρ c) (Proc.devRef .tc main_v56) = _
  unfold agg
  dsimp only [hostOps1]
  after_results_simp

theorem host1_srcs : W3 m ρ c (Proc.devRef .tc main_v1) = W2 m ρ c (Proc.devRef .tc main_v1) := by
  show StableHlo.after hostOps1 (W2 m ρ c) (Proc.devRef .tc main_v1) = _
  dsimp only [hostOps1]
  after_results_simp

theorem host1_dsts : W3 m ρ c (Proc.devRef .tc main_v3) = W2 m ρ c (Proc.devRef .tc main_v3) := by
  show StableHlo.after hostOps1 (W2 m ρ c) (Proc.devRef .tc main_v3) = _
  dsimp only [hostOps1]
  after_results_simp

theorem host1_wts : W3 m ρ c (Proc.devRef .tc main_v26) = W2 m ρ c (Proc.devRef .tc main_v26) := by
  show StableHlo.after hostOps1 (W2 m ρ c) (Proc.devRef .tc main_v26) = _
  dsimp only [hostOps1]
  after_results_simp

theorem host1_selfs : W3 m ρ c (Proc.devRef .tc main_v29) = W2 m ρ c (Proc.devRef .tc main_v29) := by
  show StableHlo.after hostOps1 (W2 m ρ c) (Proc.devRef .tc main_v29) = _
  dsimp only [hostOps1]
  after_results_simp

theorem host1_out1 : W3 m ρ c (Proc.devRef .tc main_v43) = W2 m ρ c (Proc.devRef .tc main_v43) := by
  show StableHlo.after hostOps1 (W2 m ρ c) (Proc.devRef .tc main_v43) = _
  dsimp only [hostOps1]
  after_results_simp

theorem host1_features : W3 m ρ c (Proc.devRef .tc main_arg0) = W2 m ρ c (Proc.devRef .tc main_arg0) := by
  show StableHlo.after hostOps1 (W2 m ρ c) (Proc.devRef .tc main_arg0) = _
  dsimp only [hostOps1]
  after_results_simp

theorem call1_srcs : W4 m ρ c (Proc.devRef .tc main_v1) = W3 m ρ c (Proc.devRef .tc main_v1) :=
  W4_of_ne m ρ c main_v1 (by decide)

theorem call1_dsts : W4 m ρ c (Proc.devRef .tc main_v3) = W3 m ρ c (Proc.devRef .tc main_v3) :=
  W4_of_ne m ρ c main_v3 (by decide)

theorem call1_wts : W4 m ρ c (Proc.devRef .tc main_v26) = W3 m ρ c (Proc.devRef .tc main_v26) :=
  W4_of_ne m ρ c main_v26 (by decide)

theorem call1_features : W4 m ρ c (Proc.devRef .tc main_arg0) = W3 m ρ c (Proc.devRef .tc main_arg0) :=
  W4_of_ne m ρ c main_arg0 (by decide)

theorem call1_selfs : W4 m ρ c (Proc.devRef .tc main_v29) = W3 m ρ c (Proc.devRef .tc main_v29) :=
  (W4_arr m ρ c 2).trans (((dat1 (V3 m ρ) c).arrAt_in 2 rfl _).trans (A_eq1 (V3 m ρ) c 2))

theorem call1_out1 : W4 m ρ c (Proc.devRef .tc main_v43) = W3 m ρ c (Proc.devRef .tc main_v43) :=
  (W4_arr m ρ c 1).trans (((dat1 (V3 m ρ) c).arrAt_in 1 rfl _).trans (A_eq1 (V3 m ρ) c 1))

/-- After the second call its result array holds the second layer's output. -/
theorem out2 : W4 m ρ c (Proc.devRef .tc main_v57)
    = layer (srcs m ρ c) (dsts m ρ c) (wts m ρ c) (selfs m ρ c)
        (layer (srcs m ρ c) (dsts m ρ c) (wts m ρ c) (selfs m ρ c) (m ((c : Thread nD τ).loc main_arg0))) := by
  have h : W4 m ρ c (Proc.devRef .tc main_v57) = step (W3 m ρ c (Proc.devRef .tc main_v56)) (W3 m ρ c (Proc.devRef .tc main_v43)) (W3 m ρ c (Proc.devRef .tc main_v29)) :=
    (W4_arr m ρ c 3).trans (result1 (V3 m ρ) c)
  rw [h, second_sum, host1_out1, host1_selfs, call0_srcs, call0_dsts, call0_wts, call0_selfs, out1]
  rfl

/-! ## The third host stretch and the third call -/

theorem third_sum : W5 m ρ c (Proc.devRef .tc main_v70)
    = agg (W4 m ρ c (Proc.devRef .tc main_v57)) (W4 m ρ c (Proc.devRef .tc main_v1)) (W4 m ρ c (Proc.devRef .tc main_v3)) (W4 m ρ c (Proc.devRef .tc main_v26)) := by
  show StableHlo.after hostOps2 (W4 m ρ c) (Proc.devRef .tc main_v70) = _
  unfold agg
  dsimp only [hostOps2]
  after_results_simp

theorem host2_selfs : W5 m ρ c (Proc.devRef .tc main_v29) = W4 m ρ c (Proc.devRef .tc main_v29) := by
  show StableHlo.after hostOps2 (W4 m ρ c) (Proc.devRef .tc main_v29) = _
  dsimp only [hostOps2]
  after_results_simp

theorem host2_out1 : W5 m ρ c (Proc.devRef .tc main_v43) = W4 m ρ c (Proc.devRef .tc main_v43) := by
  show StableHlo.after hostOps2 (W4 m ρ c) (Proc.devRef .tc main_v43) = _
  dsimp only [hostOps2]
  after_results_simp

theorem host2_out2 : W5 m ρ c (Proc.devRef .tc main_v57) = W4 m ρ c (Proc.devRef .tc main_v57) := by
  show StableHlo.after hostOps2 (W4 m ρ c) (Proc.devRef .tc main_v57) = _
  dsimp only [hostOps2]
  after_results_simp

theorem host2_features : W5 m ρ c (Proc.devRef .tc main_arg0) = W4 m ρ c (Proc.devRef .tc main_arg0) := by
  show StableHlo.after hostOps2 (W4 m ρ c) (Proc.devRef .tc main_arg0) = _
  dsimp only [hostOps2]
  after_results_simp

theorem call2_out1 : W6 m ρ c (Proc.devRef .tc main_v43) = W5 m ρ c (Proc.devRef .tc main_v43) :=
  W6_of_ne m ρ c main_v43 (by decide)

theorem call2_features : W6 m ρ c (Proc.devRef .tc main_arg0) = W5 m ρ c (Proc.devRef .tc main_arg0) :=
  W6_of_ne m ρ c main_arg0 (by decide)

theorem call2_out2 : W6 m ρ c (Proc.devRef .tc main_v57) = W5 m ρ c (Proc.devRef .tc main_v57) :=
  (W6_arr m ρ c 1).trans (((dat2 (V5 m ρ) c).arrAt_in 1 rfl _).trans (A_eq2 (V5 m ρ) c 1))

/-- After the third call its result array holds the third layer's output. -/
theorem out3 : W6 m ρ c (Proc.devRef .tc main_v71)
    = layer (srcs m ρ c) (dsts m ρ c) (wts m ρ c) (selfs m ρ c)
        (layer (srcs m ρ c) (dsts m ρ c) (wts m ρ c) (selfs m ρ c)
          (layer (srcs m ρ c) (dsts m ρ c) (wts m ρ c) (selfs m ρ c) (m ((c : Thread nD τ).loc main_arg0)))) := by
  have h : W6 m ρ c (Proc.devRef .tc main_v71) = step (W5 m ρ c (Proc.devRef .tc main_v70)) (W5 m ρ c (Proc.devRef .tc main_v57)) (W5 m ρ c (Proc.devRef .tc main_v29)) :=
    (W6_arr m ρ c 3).trans (result2 (V5 m ρ) c)
  rw [h, third_sum, host2_out2, host2_selfs, call1_srcs, call1_dsts, call1_wts, call1_selfs,
    host1_srcs, host1_dsts, host1_wts, host1_selfs, call0_srcs, call0_dsts, call0_wts, call0_selfs, out2]
  rfl

/-! ## The concatenation call -/

/-- The result buffer at the end of @main: the network of the input features and the four edge arrays. -/
theorem result_buffer : W7 m ρ c (Proc.devRef .tc main_v72)
    = network (m ((c : Thread nD τ).loc main_arg0)) (srcs m ρ c) (dsts m ρ c) (wts m ρ c) (selfs m ρ c) := by
  have h : W7 m ρ c (Proc.devRef .tc main_v72) = joined (W6 m ρ c (Proc.devRef .tc main_arg0)) (W6 m ρ c (Proc.devRef .tc main_v43)) (W6 m ρ c (Proc.devRef .tc main_v57)) (W6 m ρ c (Proc.devRef .tc main_v71)) :=
    (W7_arr m ρ c 4).trans (result3 (V6 m ρ) c)
  rw [h, out3, call2_out2, host2_out2, out2, call2_out1, host2_out1, call1_out1, host1_out1, out1,
    call2_features, host2_features, call1_features, host1_features, call0_features, first_features]
  rfl

end Cert.KernelIdeal.Layer

end
-- ==== Proof.RefNetwork.lean ====
/-
  The reference's result is the same network of the same arrays.

  The reference computes, from the edge list alone, each edge's source, destination and weight and each node's
  self-loop coefficient; then three times `relu (segment_sum (x[src] * w) + x * s)`; then the concatenation of the
  input and the three outputs. Operation by operation this is `Layer.network`: the neighbourhood sum is the same
  gather, product and scatter-add into zeros; `relu` is the maximum with a zero splat; the sum and the product
  with the self-loop coefficient come in the same order. The two programs' shape and dimension records are separate
  declarations with equal contents, so each equation holds by unfolding the stages.
-/
import proofs.«128240_j54949811585564_1_alg».proof.Proof.Gen.ReferenceIdeal.Read
import proofs.«128240_j54949811585564_1_alg».proof.Proof.Propagate

set_option maxRecDepth 16384

noncomputable section

namespace Cert.ReferenceIdeal.RefValue

open Idealize.ShloMosaic Cert.ReferenceIdeal Cert.ReferenceIdeal.Read
open Cert.KernelIdeal.Layer (layer network joined step agg reluAdd)

variable {F : FTy → Type} [FloatOps F]

variable (x0 : (⟨S100000x64, .f32⟩ : BufTy).Contents (Elt F)) (e : (⟨S2x1250000, .i32⟩ : BufTy).Contents (Elt F))

/-- The first layer's output. -/
theorem ref_layer1 : val_main_v45 (F := F) x0 e
    = layer (val_main_v1 (F := F) e) (val_main_v3 (F := F) e) (val_main_v26 (F := F) e) (val_main_v42 (F := F) e) x0 := rfl

/-- The second layer's output, from the first's. -/
theorem ref_layer2 : val_main_v62 (F := F) x0 e
    = layer (val_main_v1 (F := F) e) (val_main_v3 (F := F) e) (val_main_v26 (F := F) e) (val_main_v42 (F := F) e)
        (val_main_v45 (F := F) x0 e) := rfl

/-- The third layer's output, from the second's. -/
theorem ref_layer3 : val_main_v79 (F := F) x0 e
    = layer (val_main_v1 (F := F) e) (val_main_v3 (F := F) e) (val_main_v26 (F := F) e) (val_main_v42 (F := F) e)
        (val_main_v62 (F := F) x0 e) := rfl

/-- The reference's result: the network of the input features and the edge arrays it computes. -/
theorem ref_network : val_main_v80 (F := F) x0 e
    = network x0 (val_main_v1 (F := F) e) (val_main_v3 (F := F) e) (val_main_v26 (F := F) e) (val_main_v42 (F := F) e) := by
  unfold network
  rw [← ref_layer1 x0 e, ← ref_layer2 x0 e, ← ref_layer3 x0 e]
  rfl

end Cert.ReferenceIdeal.RefValue

end
-- ==== Proof.EdgeArrays.lean ====
/-
  The four edge arrays are the reference's.

  Before its first call the idealized kernel's @main computes, from the edge list alone: the source and the
  destination of each edge (the two rows of the list), the degree of each node (a scatter-add of ones into zeros,
  plus one), its power `-1/2`, each edge's weight (the product of that power gathered at the source and at the
  destination) and each node's self-loop coefficient (the power squared, broadcast along the feature axis). The
  reference computes the same four arrays by the same operations in the same order, so each pair is equal by
  reading both chains off: no property of the power, the gather or the scatter-add is used.
-/
import proofs.«128240_j54949811585564_1_alg».proof.Proof.Boundary
import proofs.«128240_j54949811585564_1_alg».proof.Proof.Gen.ReferenceIdeal.Read

set_option maxRecDepth 16384

noncomputable section

namespace Cert.KernelIdeal.Layer

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem srcs_eq : srcs m ρ c = Cert.ReferenceIdeal.Read.val_main_v1 (F := F) (m ((c : Thread nD τ).loc main_arg1)) := by
  show StableHlo.after hostOps0 (W0 m ρ c) (Proc.devRef .tc main_v1) = _
  dsimp only [hostOps0]
  after_results_simp
  rfl

theorem dsts_eq : dsts m ρ c = Cert.ReferenceIdeal.Read.val_main_v3 (F := F) (m ((c : Thread nD τ).loc main_arg1)) := by
  show StableHlo.after hostOps0 (W0 m ρ c) (Proc.devRef .tc main_v3) = _
  dsimp only [hostOps0]
  after_results_simp
  rfl

theorem wts_eq : wts m ρ c = Cert.ReferenceIdeal.Read.val_main_v26 (F := F) (m ((c : Thread nD τ).loc main_arg1)) := by
  show StableHlo.after hostOps0 (W0 m ρ c) (Proc.devRef .tc main_v26) = _
  dsimp only [hostOps0]
  after_results_simp
  rfl

theorem selfs_eq : selfs m ρ c = Cert.ReferenceIdeal.Read.val_main_v42 (F := F) (m ((c : Thread nD τ).loc main_arg1)) := by
  show StableHlo.after hostOps0 (W0 m ρ c) (Proc.devRef .tc main_v29) = _
  dsimp only [hostOps0]
  after_results_simp
  rfl

end Cert.KernelIdeal.Layer

end
-- ==== Proof.lean ====
/-
  The certificate of a three-layer graph propagation network: the Pallas program against its jnp reference.

  Both programs compute, from node features `x` (100000 × 64) and an edge list (2 × 1250000), the degree-normalised
  propagation `x ↦ relu (Σ_{edges into a node} w · x[source] + s · x)` three times and return the input and the three
  outputs side by side (100000 × 256). They share every host operation — the degree count, its power `-1/2`, the
  edge weights, the gathers and the scatter-adds. They differ in where the dense part runs: the kernel does the
  step `max (agg + x * s, 0)` in a Pallas call over tiles of 5000 nodes, with `s` broadcast to all 64 features
  beforehand, and the concatenation in a fourth call; the reference does both on the host, `relu` being the maximum
  with a zero splat.

  The proof states both results as ONE function, `Layer.network`, of the input features and four arrays the edge list
  determines (sources, destinations, weights, self-loop coefficients):
    * each Pallas call's result array is the pointwise step (or the concatenation) of its operand arrays — the tiles
      a grid point writes are blocks of one whole-array function and cover the array (Region0 … Region3);
    * the buffer contents at the end of @main, read back through the seven segments, are that network, the edge
      arrays being what the first host stretch leaves and nothing later overwrites (Boundary, over KernelRun);
    * the reference's stages compose to the same network (RefNetwork), and the kernel's four edge arrays are the
      reference's, operation for operation (EdgeArrays).
  No arithmetic law is used: the two sides are the same term, so the finiteness of the inputs is never opened.
  The frames of the two kernel programs are the generated ones; the reference's frame is its generated run with the
  result dropped; the ideal pass rewrote nothing, so the preservation claim is trivial.
-/
import proofs.«128240_j54949811585564_1_alg».proof.Defs
import proofs.«128240_j54949811585564_1_alg».proof.Proof.Gen.Kernel
import proofs.«128240_j54949811585564_1_alg».proof.Proof.Gen.Kernel.Frame
import proofs.«128240_j54949811585564_1_alg».proof.Proof.Gen.KernelIdeal
import proofs.«128240_j54949811585564_1_alg».proof.Proof.Gen.KernelIdeal.Frame
import proofs.«128240_j54949811585564_1_alg».proof.Proof.Gen.ReferenceIdeal
import proofs.«128240_j54949811585564_1_alg».proof.Proof.Gen.Pre_finite_inputs
import proofs.«128240_j54949811585564_1_alg».proof.Proof.Gen.ReferenceIdeal.Run
import proofs.«128240_j54949811585564_1_alg».proof.Proof.Gen.ReferenceIdeal.Read
import proofs.«128240_j54949811585564_1_alg».proof.Proof.KernelRun
import proofs.«128240_j54949811585564_1_alg».proof.Proof.Boundary
import proofs.«128240_j54949811585564_1_alg».proof.Proof.RefNetwork
import proofs.«128240_j54949811585564_1_alg».proof.Proof.EdgeArrays

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with the result at `Layer.network` of the input features and the edge
    arrays: the kernel's by reading its final buffer contents back, the reference's by composing its stages, the
    edge arrays of the two being equal. -/
theorem algebraic : Cert.algebraic_KernelIdeal_ReferenceIdeal := by
  intro m ρ m' ρ' _ hagree
  refine ⟨fun c => Cert.KernelIdeal.Layer.network (m ((c.tc : Thread Cert.KernelIdeal.nD Cert.KernelIdeal.τ).loc Cert.KernelIdeal.main_arg0))
      (Cert.KernelIdeal.Layer.srcs m ρ c) (Cert.KernelIdeal.Layer.dsts m ρ c) (Cert.KernelIdeal.Layer.wts m ρ c)
      (Cert.KernelIdeal.Layer.selfs m ρ c), ?_, ?_⟩
  · exact (θ_run Cert.KernelIdeal.defs _ _).mono
      (fun _ h c => ⟨(h c).1.trans (Cert.KernelIdeal.Layer.result_buffer m ρ c), (h c).2⟩)
      (Cert.KernelIdeal.Layer.run_value (F := Ideal) m ρ)
  · refine (θ_run Cert.ReferenceIdeal.defs _ _).mono (fun _ h c => ⟨(h c).1.trans ?_, (h c).2⟩)
      (Cert.ReferenceIdeal.Value.run (F := Ideal) m' ρ')
    beta_reduce
    rw [Cert.ReferenceIdeal.Read.val_main_v80_eq, (hagree c).1, (hagree c).2, Cert.ReferenceIdeal.RefValue.ref_network,
      Cert.KernelIdeal.Layer.srcs_eq m ρ c, Cert.KernelIdeal.Layer.dsts_eq m ρ c, Cert.KernelIdeal.Layer.wts_eq m ρ c,
      Cert.KernelIdeal.Layer.selfs_eq m ρ c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
